-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8x64 : Shape := ⟨4, ![4, 2048, 8, 64]⟩
abbrev S_ : Shape := ⟨0, ![]⟩

class Facts : Prop where
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  h_S_ : 0 < S_.numel

variable [Facts]

def fn {F : FTy → Type} [FloatOps F] (main_arg0 : FVec F S4x2048x8x64 .f32) (main_arg1 : FVec F S4x2048x8x64 .f32) (main_arg2 : FVec F S4x2048x8x64 .f32) : IVec S_ 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_c : IVec S_ 1 := constantI S_ 1 1#1
  let main_v3 : IVec S_ 1 := (fun x v => Host.reduce IntOp.andi x v reducesTo_S4x2048x8x64_S_d0_1_2_3 h_S_) main_v2 main_c
  let main_v4 : FVec F S4x2048x8x64 .f32 := Host.absf main_arg1
  let main_cst_0 : FVec F S_ .f32 := constant S_ .f32 0x7F800000#32
  let main_v5 : FVec F S4x2048x8x64 .f32 := broadcastInDim S4x2048x8x64 ![] bcast_S_S4x2048x8x64 main_cst_0
  let main_v6 : IVec S4x2048x8x64 1 := cmpf .olt main_v4 main_v5
  let main_c_1 : IVec S_ 1 := constantI S_ 1 1#1
  let main_v7 : IVec S_ 1 := (fun x v => Host.reduce IntOp.andi x v reducesTo_S4x2048x8x64_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  main_v13
-- ==== Kernel.lean ====
abbrev S4x2048x8x64 : Shape := ⟨4, ![4, 2048, 8, 64]⟩
abbrev S4x8x2048x64 : Shape := ⟨4, ![4, 8, 2048, 64]⟩
abbrev S32x2048x64 : Shape := ⟨3, ![32, 2048, 64]⟩
abbrev S4x8x64x2048 : Shape := ⟨4, ![4, 8, 64, 2048]⟩
abbrev S32x64x2048 : Shape := ⟨3, ![32, 64, 2048]⟩
abbrev S1x1024x64 : Shape := ⟨3, ![1, 1024, 64]⟩
abbrev S1x64x2048 : Shape := ⟨3, ![1, 64, 2048]⟩
abbrev S1x2048x64 : Shape := ⟨3, ![1, 2048, 64]⟩
abbrev S1024x64 : Shape := ⟨2, ![1024, 64]⟩
abbrev S64x2048 : Shape := ⟨2, ![64, 2048]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x8x2048x64, .f32⟩
  | .hbm, ⟨4, _⟩ => ⟨S32x2048x64, .f32⟩
  | .hbm, ⟨5, _⟩ => ⟨S32x2048x64, .bf16⟩
  | .hbm, ⟨6, _⟩ => ⟨S4x8x64x2048, .f32⟩
  | .hbm, ⟨7, _⟩ => ⟨S32x64x2048, .f32⟩
  | .hbm, ⟨8, _⟩ => ⟨S32x64x2048, .bf16⟩
  | .hbm, ⟨9, _⟩ => ⟨S4x8x2048x64, .f32⟩
  | .hbm, ⟨10, _⟩ => ⟨S32x2048x64, .f32⟩
  | .hbm, ⟨11, _⟩ => ⟨S32x2048x64, .bf16⟩
  | .hbm, ⟨12, _⟩ => ⟨S32x2048x64, .f32⟩
  | .hbm, ⟨13, _⟩ => ⟨S4x8x2048x64, .f32⟩
  | .hbm, ⟨14, _⟩ => ⟨S4x2048x8x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x2048x8x64_S4x8x2048x64_0_2_1_3 : S4x2048x8x64.Transposes [0, 2, 1, 3] S4x8x2048x64
  shapeCasts_S4x8x2048x64_S32x2048x64 : S4x8x2048x64.ShapeCasts S32x2048x64
  bitsLt_bf16_f32 : FTy.bits .bf16 < FTy.bits .f32
  transposes_S4x2048x8x64_S4x8x64x2048_0_2_3_1 : S4x2048x8x64.Transposes [0, 2, 3, 1] S4x8x64x2048
  shapeCasts_S4x8x64x2048_S32x64x2048 : S4x8x64x2048.ShapeCasts S32x64x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S4x8x2048x64 : S32x2048x64.ShapeCasts S4x8x2048x64
  transposes_S4x8x2048x64_S4x2048x8x64_0_2_1_3 : S4x8x2048x64.Transposes [0, 2, 1, 3] S4x2048x8x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S32x64x2048.size a
  hwx0_1 : ∀ i : grid0.Coords, EltTy.bits .bf16 = 32 ∨ (Rect.block (s := S32x64x2048) S1x64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v2) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x8x2048x64, .f32⟩
  | .hbm, ⟨4, _⟩ => ⟨S4x8x2048x64, .f32⟩
  | .hbm, ⟨5, _⟩ => ⟨S4x8x2048x64, .f32⟩
  | .hbm, ⟨6, _⟩ => ⟨S4x8x2048x2048, .f32⟩
  | .hbm, ⟨7, _⟩ => ⟨S_, .f32⟩
  | .hbm, ⟨8, _⟩ => ⟨S4x8x2048, .f32⟩
  | .hbm, ⟨9, _⟩ => ⟨S_, .f32⟩
  | .hbm, ⟨10, _⟩ => ⟨S4x8x2048, .f32⟩
  | .hbm, ⟨11, _⟩ => ⟨S4x8x2048, .f32⟩
  | .hbm, ⟨12, _⟩ => ⟨S4x8x2048x1, .f32⟩
  | .hbm, ⟨13, _⟩ => ⟨S4x8x2048x2048, .f32⟩
  | .hbm, ⟨14, _⟩ => ⟨S4x8x2048x2048, .f32⟩
  | .hbm, ⟨15, _⟩ => ⟨S4x8x2048x2048, .f32⟩
  | .hbm, ⟨16, _⟩ => ⟨S_, .f32⟩
  | .hbm, ⟨17, _⟩ => ⟨S4x8x2048, .f32⟩
  | .hbm, ⟨18, _⟩ => ⟨S4x8x2048x1, .f32⟩
  | .hbm, ⟨19, _⟩ => ⟨S4x8x2048x2048, .f32⟩
  | .hbm, ⟨20, _⟩ => ⟨S4x8x2048x2048, .f32⟩
  | .hbm, ⟨21, _⟩ => ⟨S4x8x2048x64, .f32⟩
  | .hbm, ⟨22, _⟩ => ⟨S4x2048x8x64, .f32⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S4x2048x8x64_S4x8x2048x64_0_2_1_3 : S4x2048x8x64.Transposes [0, 2, 1, 3] S4x8x2048x64
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.LibAttentionBody.lean ====
/-
  One tile of softmax attention normalised after the weighted sum, as a kernel body computes it, read at coordinates.

  For queries `q : [a, e]`, transposed keys `kt : [e, n]` and values `v : [n, f]`, at any extents: the scores are the plain
  product `q · kt` into the zero matrix; a row's top is the maximum of its scores along the second axis from the word of
  `-∞`; the top is laid as a column and spread over the row; the weights are the exponentials of score minus top; a
  row's mass is the sum of its weights from the zero word, laid as a column and spread over the `f` features; the weights,
  narrowed to another float format (the identity on extended reals), are multiplied into the values, and the product is
  divided by the spread mass. At `(r, d)` the result is
  `(Σ_k exp (S r k − M r) · v (k, d)) / Σ_k exp (S r k − M r)`, with `S r k = Σ_j q (r, j) · kt (j, k)` and `M r` the running
  maximum of `S r ·` from `-∞`.
-/
import proofs.«135137_j30107720745426_2_alg».proof.Proof.LibPlainMatmul
import proofs.«135137_j30107720745426_2_alg».proof.Proof.LibColumnLayout
import proofs.«135137_j30107720745426_2_alg».proof.Proof.LibMatrixReduce

noncomputable section

namespace Cert.AttentionBody

open scoped BigOperators
open Idealize.ShloMosaic Idealize.ShloMosaic.ValueIdx Cert.PlainMatmul Cert.ColumnLayout Cert.MatrixReduce

variable {a n e f : ℕ} {φ₁ φ₂ φ₃ ψ : FTy}

/-- The score of row `r` against column `k` of the transposed keys. -/
def rowScore (q : FVec Ideal ⟨2, ![a, e]⟩ φ₁) (kt : FVec Ideal ⟨2, ![e, n]⟩ φ₂) (r : Fin a) (k : Fin n) : EReal :=
  ∑ j : Fin e, q (ix2 r j) * kt (ix2 j k)

/-- The running maximum of a row's scores from `-∞`. -/
def rowTop (q : FVec Ideal ⟨2, ![a, e]⟩ φ₁) (kt : FVec Ideal ⟨2, ![e, n]⟩ φ₂) (r : Fin a) : EReal :=
  (Finset.univ : Finset (Fin n)).fold max (Ideal.ofBits .f32 0xFF800000#32) (fun k => rowScore q kt r k)

/-- The unnormalised weight. -/
def rowWeight (q : FVec Ideal ⟨2, ![a, e]⟩ φ₁) (kt : FVec Ideal ⟨2, ![e, n]⟩ φ₂) (r : Fin a) (k : Fin n) : EReal :=
  Ideal.exp (rowScore q kt r k - rowTop q kt r)

/-- The score matrix: the plain product into the zero matrix. -/
abbrev scoreMat (q : FVec Ideal ⟨2, ![a, e]⟩ φ₁) (kt : FVec Ideal ⟨2, ![e, n]⟩ φ₂) : FVec Ideal ⟨2, ![a, n]⟩ .f32 :=
  FloatOps.matmul (DotDims.plain a e n) none q kt (constant ⟨2, ![a, n]⟩ .f32 0x00000000#32)

/-- The weight matrix: exponentials of score minus the row's top, the top laid as a column and spread over the row. -/
abbrev weightMat (q : FVec Ideal ⟨2, ![a, e]⟩ φ₁) (kt : FVec Ideal ⟨2, ![e, n]⟩ φ₂)
    (hred : (⟨2, ![a, n]⟩ : Shape).Reduces [1] ⟨1, ![a]⟩) (hφ : FKind.Formats .f32)
    (hmax : (0xFF800000#32 : BitVec 32) = FKind.maximumf.neutral .f32 hφ)
    (hcol : (⟨1, ![a]⟩ : Shape).ShapeCasts ⟨2, ![a, 1]⟩) (hrow : (⟨2, ![a, 1]⟩ : Shape).Broadcasts ⟨2, ![a, n]⟩) :
    FVec Ideal ⟨2, ![a, n]⟩ .f32 :=
  exp (subf (scoreMat q kt) (broadcastTo ⟨2, ![a, n]⟩ (shapeCast ⟨2, ![a, 1]⟩
    (multiReduction .maximumf [1] ⟨1, ![a]⟩ (scoreMat q kt) 0xFF800000#32 hred hφ hmax) hcol) hrow))

/-- A score-matrix entry is the row's score. -/
theorem scoreMat_apply (q : FVec Ideal ⟨2, ![a, e]⟩ φ₁) (kt : FVec Ideal ⟨2, ![e, n]⟩ φ₂) (r : Fin a) (k : Fin n) :
    scoreMat q kt (ix2 r k) = rowScore q kt r k :=
  plain_apply q kt r k

/-- A weight-matrix entry is the row's weight. -/
theorem weightMat_apply (q : FVec Ideal ⟨2, ![a, e]⟩ φ₁) (kt : FVec Ideal ⟨2, ![e, n]⟩ φ₂)
    (hred : (⟨2, ![a, n]⟩ : Shape).Reduces [1] ⟨1, ![a]⟩) (hφ : FKind.Formats .f32)
    (hmax : (0xFF800000#32 : BitVec 32) = FKind.maximumf.neutral .f32 hφ)
    (hcol : (⟨1, ![a]⟩ : Shape).ShapeCasts ⟨2, ![a, 1]⟩) (hrow : (⟨2, ![a, 1]⟩ : Shape).Broadcasts ⟨2, ![a, n]⟩)
    (r : Fin a) (k : Fin n) :
    weightMat q kt hred hφ hmax hcol hrow (ix2 r k) = rowWeight q kt r k := by
  show Ideal.exp (scoreMat q kt (ix2 r k) - broadcastTo ⟨2, ![a, n]⟩ (shapeCast ⟨2, ![a, 1]⟩
    (multiReduction .maximumf [1] ⟨1, ![a]⟩ (scoreMat q kt) 0xFF800000#32 hred hφ hmax) hcol) hrow (ix2 r k)) = _
  rw [broadcastTo_a1_ab_apply, shapeCast_a_a1_apply, rowMax_apply, scoreMat_apply]
  unfold rowWeight rowTop
  refine congrArg (fun t => Ideal.exp (rowScore q kt r k - t)) ?_
  exact congrArg (fun g => (Finset.univ : Finset (Fin n)).fold max (Ideal.ofBits .f32 0xFF800000#32) g)
    (funext fun k' => scoreMat_apply q kt r k')

/-- The tile's result at `(r, d)`: the weighted sum of the values divided by the row's mass. -/
theorem normalisedAfter_apply (q : FVec Ideal ⟨2, ![a, e]⟩ φ₁) (kt : FVec Ideal ⟨2, ![e, n]⟩ φ₂)
    (v : FVec Ideal ⟨2, ![n, f]⟩ φ₃)
    (hred : (⟨2, ![a, n]⟩ : Shape).Reduces [1] ⟨1, ![a]⟩) (hφ : FKind.Formats .f32)
    (hmax : (0xFF800000#32 : BitVec 32) = FKind.maximumf.neutral .f32 hφ)
    (hsum : (0x00000000#32 : BitVec 32) = FKind.add.neutral .f32 hφ)
    (hcol : (⟨1, ![a]⟩ : Shape).ShapeCasts ⟨2, ![a, 1]⟩) (hrow : (⟨2, ![a, 1]⟩ : Shape).Broadcasts ⟨2, ![a, n]⟩)
    (hfeat : (⟨2, ![a, 1]⟩ : Shape).Broadcasts ⟨2, ![a, f]⟩) (hnarrow : ψ.bits < FTy.f32.bits)
    (r : Fin a) (d : Fin f) :
    divf (FloatOps.matmul (DotDims.plain a n f) none (truncf ψ (weightMat q kt hred hφ hmax hcol hrow) hnarrow) v
        (constant ⟨2, ![a, f]⟩ .f32 0x00000000#32))
      (broadcastTo ⟨2, ![a, f]⟩ (shapeCast ⟨2, ![a, 1]⟩
        (multiReduction .add [1] ⟨1, ![a]⟩ (weightMat q kt hred hφ hmax hcol hrow) 0x00000000#32 hred hφ hsum) hcol) hfeat)
      (ix2 r d)
    = Ideal.div (∑ k : Fin n, rowWeight q kt r k * v (ix2 k d)) (∑ k : Fin n, rowWeight q kt r k) := by
  rw [divf_apply, broadcastTo_a1_ab_apply, shapeCast_a_a1_apply, rowSum_apply, plain_apply]
  refine congrArg₂ Ideal.div (Finset.sum_congr rfl fun k _ => ?_) (Finset.sum_congr rfl fun k _ => ?_)
  · rw [truncf_apply, weightMat_apply]
  · exact weightMat_apply q kt hred hφ hmax hcol hrow r k

end Cert.AttentionBody

end
-- ==== Proof.LibLayer1Layout.lean ====
/-
  Leading unit axes and row spreads, read at coordinates.

  A block `[1, a, b]` viewed as the matrix `[a, b]` reads `(p, q)` at `(0, p, q)`; a matrix `[a, b]` stored as the
  block `[1, a, b]` reads `(z, p, q)` at `(p, q)`; a row `[1, b]` spread over the `a` rows of `[a, b]` reads
  `(p, q)` at `(0, q)`.
-/
import Idealize.ShloMosaic.Lib.Pipeline.Value
import Idealize.ShloMosaic.Lib.ValueIdx

namespace Cert.Layer1Layout

open Idealize.ShloMosaic Idealize.ShloMosaic.ValueIdx

variable {α : Type} {a b : ℕ}

/-- Dropping the leading unit axis: the matrix at `(p, q)` is the block at `(0, p, q)`. -/
theorem dropLead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  rw [shapeCast_dropUnit_apply ![a, b] v h (ix2 p q)]
  refine congrArg v (funext fun d => ?_)
  match d with
  | ⟨0, _⟩ => rfl
  | ⟨1, _⟩ => rfl
  | ⟨2, _⟩ => rfl

/-- Adding a leading unit axis: the block at `(z, p, q)` is the matrix at `(p, q)`. -/
theorem addLead_apply (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) := by
  rw [shapeCast_addUnit_apply ![a, b] v h (ix3 z p q)]
  refine congrArg v (funext fun d => ?_)
  match d with
  | ⟨0, _⟩ => rfl
  | ⟨1, _⟩ => rfl

/-- A row `[1, b]` spread over the rows of `[a, b]`: the entry `(p, q)` is the row's entry `q`. -/
theorem rowSpread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) (fun d => ?_)
  match d with
  | ⟨0, _⟩ => show 0 = if (1 : ℕ) = 1 then 0 else _; rw [if_pos rfl]
  | ⟨1, _⟩ =>
    show q.val = if b = 1 then 0 else q.val
    have hq := q.isLt
    split <;> omega

end Cert.Layer1Layout
-- ==== Proof.LibTiledAttention.lean ====
/-
  The algebra, on the extended reals, that joins a weighted mean accumulated tile by tile to the same mean written with whole sums.

  • A sum over a + b indices is the sum over the first a plus the sum over the last b (a matrix product whose contracted
    axis is cut in two). No finiteness is needed: the extended reals are a commutative additive monoid.
  • A sum over a·b indices is reached by starting from zero and adding, in order, the a sums over b consecutive indices
    (an accumulator that is reset at the first tile and then adds one tile's sum per step).
  • Dividing a finite sum of products of real numbers by a nonzero real number is the sum of the products with each first
    factor divided: normalising after the sum is normalising every weight first.
  • The logistic function of a real number is a positive real number; finite sums and products of real numbers are real
    numbers, and a sum of positive reals over a nonempty index set is positive.
-/
import Mathlib.Algebra.BigOperators.Fin
import Mathlib.Algebra.BigOperators.Intervals
import Idealize.ShloMosaic.PureOps.Ideal

noncomputable section

namespace Cert.LibTiledAttention

open scoped BigOperators
open Idealize.ShloMosaic

/-! ### A sum cut in two -/

section Monoid
variable {M : Type*} [AddCommMonoid M]

/-- A sum over `a + b` indices is the sum over the first `a` plus the sum over the last `b`. -/
theorem sum_fin_split {a b n : ℕ} (h : a + b = n) (f : Fin n → M) :
    ∑ k : Fin n, f k = (∑ k : Fin a, f ⟨k.val, by omega⟩) + ∑ k : Fin b, f ⟨k.val + a, by omega⟩ := by
  subst h
  rw [Fin.sum_univ_add]
  congr 1
  refine Finset.sum_congr rfl fun k _ => ?_
  congr 1
  ext
  simp only [Fin.coe_natAdd]
  omega

/-- A sum of 259 terms is the sum of the first 3 plus the sum of the remaining 256. -/
theorem sum_259 (f : Fin 259 → M) :
    ∑ k : Fin 259, f k = (∑ k : Fin 3, f ⟨k.val, by omega⟩) + ∑ k : Fin 256, f ⟨k.val + 3, by omega⟩ :=
  sum_fin_split (a := 3) (b := 256) rfl f

/-! ### A sum taken tile by tile -/

/-- The entry of a function on `Fin n` at a natural number; zero past the end. -/
def atNat {n : ℕ} (f : Fin n → M) (i : ℕ) : M := if h : i < n then f ⟨i, h⟩ else 0

/-- Place `j` of tile `k`, of `a` tiles of `b` places, is below `a * b`. -/
theorem tile_bound {a b n : ℕ} (h : a * b = n) {k : ℕ} (hk : k < a) (j : Fin b) : k * b + j.val < n := by
  subst h
  calc k * b + j.val < k * b + b := Nat.add_lt_add_left j.isLt _
    _ = (k + 1) * b := by ring
    _ ≤ a * b := Nat.mul_le_mul_right _ hk

/-- The sum of `f` over tile `k`: the `b` consecutive indices from `k * b`. -/
def tileSum {a b n : ℕ} (h : a * b = n) (f : Fin n → M) (k : ℕ) (hk : k < a) : M :=
  ∑ j : Fin b, f ⟨k * b + j.val, tile_bound h hk j⟩

/-- The accumulator after tile `k`: zero plus the sum over tile 0 at the first tile, the previous accumulator plus the
    sum over tile `k + 1` afterwards. -/
def runningSum {a b n : ℕ} (h : a * b = n) (f : Fin n → M) : (k : ℕ) → k < a → M
  | 0, hk => 0 + tileSum h f 0 hk
  | k + 1, hk => runningSum h f k (Nat.lt_of_succ_lt hk) + tileSum h f (k + 1) hk

/-- The accumulator at the first tile. -/
theorem runningSum_zero {a b n : ℕ} (h : a * b = n) (f : Fin n → M) (hk : 0 < a) :
    runningSum h f 0 hk = 0 + tileSum h f 0 hk := rfl

/-- The accumulator at a later tile. -/
theorem runningSum_succ {a b n : ℕ} (h : a * b = n) (f : Fin n → M) (k : ℕ) (hk : k + 1 < a) :
    runningSum h f (k + 1) hk = runningSum h f k (Nat.lt_of_succ_lt hk) + tileSum h f (k + 1) hk := rfl

/-- A tile's sum as a sum over a range of natural numbers. -/
theorem tileSum_eq_range {a b n : ℕ} (h : a * b = n) (f : Fin n → M) (k : ℕ) (hk : k < a) :
    tileSum h f k hk = ∑ p ∈ Finset.range b, atNat f (k * b + p) := by
  rw [tileSum, Finset.sum_range]
  refine Finset.sum_congr rfl fun j _ => ?_
  rw [atNat, dif_pos (tile_bound h hk j)]

/-- The accumulator after tile `k` is the sum over the first `(k + 1) * b` indices. -/
theorem runningSum_eq_range {a b n : ℕ} (h : a * b = n) (f : Fin n → M) :
    ∀ (k : ℕ) (hk : k < a), runningSum h f k hk = ∑ i ∈ Finset.range ((k + 1) * b), atNat f i
  | 0, hk => by
    rw [runningSum_zero, zero_add, tileSum_eq_range, Nat.zero_add, Nat.one_mul]
    exact Finset.sum_congr rfl fun p _ => by rw [Nat.zero_mul, Nat.zero_add]
  | k + 1, hk => by
    rw [runningSum_succ, runningSum_eq_range h f k, tileSum_eq_range, Nat.succ_mul (k + 1) b, Finset.sum_range_add]

/-- After the last tile the accumulator is the sum over every index. -/
theorem runningSum_last {a b n : ℕ} (h : a * b = n) (f : Fin n → M) (k : ℕ) (hk : k < a) (hlast : k + 1 = a) :
    runningSum h f k hk = ∑ i : Fin n, f i := by
  rw [runningSum_eq_range, hlast, h, Finset.sum_range]
  exact Finset.sum_congr rfl fun i _ => dif_pos i.isLt

end Monoid

/-! ### Sixteen tiles of 512 -/

/-- Tile `k` of a function on `Fin 8192`: the sum of its 512 consecutive entries from `512 k`. -/
def tile (f : Fin 8192 → EReal) (k : ℕ) (hk : k < 16) : EReal := ∑ j : Fin 512, f ⟨k * 512 + j.val, by omega⟩

/-- The accumulator after tile `k` of sixteen: `0 + tile 0`, then one more tile per step. -/
def running (f : Fin 8192 → EReal) : (k : ℕ) → k < 16 → EReal
  | 0, hk => 0 + tile f 0 hk
  | k + 1, hk => running f k (Nat.lt_of_succ_lt hk) + tile f (k + 1) hk

/-- The accumulator at the first tile. -/
theorem running_zero (f : Fin 8192 → EReal) (hk : 0 < 16) : running f 0 hk = 0 + tile f 0 hk := rfl

/-- The accumulator at a later tile. -/
theorem running_succ (f : Fin 8192 → EReal) (k : ℕ) (hk : k + 1 < 16) :
    running f (k + 1) hk = running f k (Nat.lt_of_succ_lt hk) + tile f (k + 1) hk := rfl

/-- A tile of 512 is the general tile sum at sixteen tiles of 512. -/
theorem tile_eq_tileSum (f : Fin 8192 → EReal) (k : ℕ) (hk : k < 16) :
    tile f k hk = tileSum (a := 16) (b := 512) (n := 8192) rfl f k hk := rfl

/-- The accumulator over sixteen tiles of 512 is the general one. -/
theorem running_eq_runningSum (f : Fin 8192 → EReal) :
    ∀ (k : ℕ) (hk : k < 16), running f k hk = runningSum (a := 16) (b := 512) (n := 8192) rfl f k hk
  | 0, _ => rfl
  | k + 1, hk => by rw [running_succ, runningSum_succ, running_eq_runningSum f k, tile_eq_tileSum]

/-- After the sixteenth tile the accumulator is the sum over all 8192 indices. -/
theorem running_last (f : Fin 8192 → EReal) (hk : 15 < 16) : running f 15 hk = ∑ j : Fin 8192, f j := by
  rw [running_eq_runningSum]
  exact runningSum_last (a := 16) (b := 512) rfl f 15 hk rfl

/-! ### Real numbers among the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two real numbers is a real number. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A product of two real numbers is a real number. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of real numbers is a real number. -/
theorem real_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of products of real numbers is a real number. -/
theorem real_sum_mul {ι : Type*} (s : Finset ι) {f g : ι → EReal} (hf : ∀ i, ∃ r : ℝ, f i = (r : EReal))
    (hg : ∀ i, ∃ r : ℝ, g i = (r : EReal)) : ∃ r : ℝ, ∑ i ∈ s, f i * g i = (r : EReal) :=
  real_sum s fun i => real_mul (hf i) (hg i)

/-- A sum of positive real numbers over a nonempty finite index type is a positive real number. -/
theorem pos_sum {ι : Type*} [Fintype ι] [Nonempty ι] {f : ι → EReal} (hf : ∀ i, ∃ r : ℝ, 0 < r ∧ f i = (r : EReal)) :
    ∃ r : ℝ, 0 < r ∧ ∑ i, f i = (r : EReal) := by
  choose g hg using hf
  refine ⟨∑ i, g i, Finset.sum_pos (fun i _ => (hg i).1) Finset.univ_nonempty, ?_⟩
  rw [coe_sum]
  exact Finset.sum_congr rfl fun i _ => (hg i).2

/-- The logistic function of a real number is a positive real number. -/
theorem logistic_pos {x : EReal} (hx : ∃ r : ℝ, x = (r : EReal)) :
    ∃ r : ℝ, 0 < r ∧ Ideal.logistic x = (r : EReal) := by
  obtain ⟨a, rfl⟩ := hx
  exact ⟨(1 + Real.exp (-a))⁻¹, by positivity, Ideal.logistic_coe a⟩

/-- The logistic function of a real number is a real number. -/
theorem real_logistic {x : EReal} (hx : ∃ r : ℝ, x = (r : EReal)) : ∃ r : ℝ, Ideal.logistic x = (r : EReal) := by
  obtain ⟨r, _, h⟩ := logistic_pos hx
  exact ⟨r, h⟩

/-- A real number divided by a nonzero real number is a real number. -/
theorem real_div {x D : EReal} (hx : ∃ r : ℝ, x = (r : EReal)) (hD : ∃ δ : ℝ, δ ≠ 0 ∧ D = (δ : EReal)) :
    ∃ r : ℝ, Ideal.div x D = (r : EReal) := by
  obtain ⟨a, rfl⟩ := hx
  obtain ⟨δ, hδ, rfl⟩ := hD
  exact ⟨a * (1 / δ), by rw [Ideal.div_coe hδ, EReal.coe_mul]⟩

/-- A positive real number is a real number. -/
theorem real_of_pos {x : EReal} (hx : ∃ r : ℝ, 0 < r ∧ x = (r : EReal)) : ∃ r : ℝ, x = (r : EReal) := by
  obtain ⟨r, _, h⟩ := hx
  exact ⟨r, h⟩

/-- A positive real number is a nonzero real number. -/
theorem ne_zero_of_pos {D : EReal} (hD : ∃ δ : ℝ, 0 < δ ∧ D = (δ : EReal)) : ∃ δ : ℝ, δ ≠ 0 ∧ D = (δ : EReal) := by
  obtain ⟨δ, hδ, h⟩ := hD
  exact ⟨δ, hδ.ne', h⟩

/-! ### Normalising after the sum -/

/-- Dividing a finite sum of products of real numbers by a nonzero real number divides each first factor: the quotient
    of the accumulated products by the accumulated weights is the mean under the normalised weights. -/
theorem div_sum_mul {ι : Type*} [Fintype ι] (p v : ι → EReal) (D : EReal) (hp : ∀ j, ∃ r : ℝ, p j = (r : EReal))
    (hv : ∀ j, ∃ r : ℝ, v j = (r : EReal)) (hD : ∃ δ : ℝ, δ ≠ 0 ∧ D = (δ : EReal)) :
    Ideal.div (∑ j, p j * v j) D = ∑ j, Ideal.div (p j) D * v j := by
  choose a ha using hp
  choose b hb using hv
  obtain ⟨δ, hδ, rfl⟩ := hD
  have hl : ∑ j, p j * v j = ((∑ j, a j * b j : ℝ) : EReal) := by
    rw [coe_sum]
    exact Finset.sum_congr rfl fun j _ => by rw [ha j, hb j, EReal.coe_mul]
  have hr : ∀ j, Ideal.div (p j) (δ : EReal) * v j = ((a j * (1 / δ) * b j : ℝ) : EReal) := fun j => by
    rw [Ideal.div_coe hδ, ha j, hb j, EReal.coe_mul, EReal.coe_mul]
  rw [Ideal.div_coe hδ, hl, Finset.sum_congr rfl fun j _ => hr j, ← coe_sum, ← EReal.coe_mul, Finset.sum_mul]
  congr 1
  exact Finset.sum_congr rfl fun j _ => by ring

end Cert.LibTiledAttention

end
-- ==== Proof.Attention.lean ====
/-
  Dense softmax attention on the extended reals, one head and one query row at a time.

  For arrays `Q K V` indexed `(batch, position, head, feature)`, the score of query position `l` against key position
  `k` in head `(b, h)` is `Σ_j Q(b,l,h,j) · K(b,k,h,j)`; the row's top is the running maximum of its scores from `-∞`;
  the weight of `k` is `exp (score − top)`; the row's mass is the sum of its weights. The attended value can be
  normalised AFTER the weighted sum, `(Σ_k weight_k · V(b,k,h,d)) / mass`, or BEFORE it, `Σ_k (weight_k / mass) · V(b,k,h,d)`.
  On the extended reals the two agree when every entry of `Q`, `K`, `V` is a real number: scores are then real, the
  top of a nonempty row of reals is real, weights are positive reals, the mass is a positive real, and a quotient by a
  nonzero real distributes over a finite sum of products of reals.
-/
import Idealize.ShloMosaic.PureOps.Ideal
import Idealize.ShloMosaic.PureOps.Ideal.Laws
import Idealize.ShloMosaic.Lib.ValueIdx
import proofs.«135137_j30107720745426_2_alg».proof.Proof.LibTiledAttention

noncomputable section

namespace Cert.Attention

open scoped BigOperators
open Idealize.ShloMosaic Idealize.ShloMosaic.ValueIdx Cert.LibTiledAttention

/-- An array indexed (batch, position, head, feature). -/
abbrev Arr : Type := (⟨4, ![4, 2048, 8, 64]⟩ : Shape).Idx → EReal

/-- Every entry is a real number. -/
def AllReal (A : Arr) : Prop := ∀ i, ∃ r : ℝ, A i = (r : EReal)

/-- The f32 word of `-∞` denotes `⊥`. -/
theorem ofBits_neg_inf : Ideal.ofBits .f32 0xFF800000#32 = (⊥ : EReal) := by
  simp [Ideal.ofBits, Ideal.ieee]

variable (Q K V : Arr)

/-- The score of query position `l` against key position `k` in head `(b, h)`. -/
def score (b : Fin 4) (h : Fin 8) (l k : Fin 2048) : EReal := ∑ j : Fin 64, Q (ix4 b l h j) * K (ix4 b k h j)

/-- The running maximum, from `-∞`, of a row's scores. -/
def top (b : Fin 4) (h : Fin 8) (l : Fin 2048) : EReal :=
  (Finset.univ : Finset (Fin 2048)).fold max (Ideal.ofBits .f32 0xFF800000#32) (fun k => score Q K b h l k)

/-- The unnormalised weight of key position `k`. -/
def weight (b : Fin 4) (h : Fin 8) (l k : Fin 2048) : EReal := Ideal.exp (score Q K b h l k - top Q K b h l)

/-- The sum of a row's weights. -/
def mass (b : Fin 4) (h : Fin 8) (l : Fin 2048) : EReal := ∑ k : Fin 2048, weight Q K b h l k

/-- Normalised after the weighted sum. -/
def attendAfter (b : Fin 4) (l : Fin 2048) (h : Fin 8) (d : Fin 64) : EReal :=
  Ideal.div (∑ k : Fin 2048, weight Q K b h l k * V (ix4 b k h d)) (mass Q K b h l)

/-- Normalised before the weighted sum. -/
def attendBefore (b : Fin 4) (l : Fin 2048) (h : Fin 8) (d : Fin 64) : EReal :=
  ∑ k : Fin 2048, Ideal.div (weight Q K b h l k) (mass Q K b h l) * V (ix4 b k h d)

/-- The running maximum from `⊥` of a nonempty finite family of real numbers is a real number. -/
theorem real_fold_max {ι : Type*} [Fintype ι] [Nonempty ι] (f : ι → EReal) (hf : ∀ i, ∃ r : ℝ, f i = (r : EReal)) :
    ∃ r : ℝ, (Finset.univ : Finset ι).fold max (⊥ : EReal) f = (r : EReal) := by
  classical
  have key : ∀ s : Finset ι, s.fold max (⊥ : EReal) f = ⊥ ∨ ∃ r : ℝ, s.fold max (⊥ : EReal) f = (r : EReal) := by
    intro s
    induction s using Finset.induction_on with
    | empty => exact Or.inl (Finset.fold_empty)
    | insert a s ha ih =>
      rw [Finset.fold_insert ha]
      obtain ⟨r, hr⟩ := hf a
      rcases ih with h | ⟨r', h⟩
      · exact Or.inr ⟨r, by rw [h, hr, max_eq_left bot_le]⟩
      · exact Or.inr ⟨max r r', by rw [h, hr]; exact (EReal.coe_strictMono.monotone.map_max).symm⟩
  rcases key Finset.univ with h | h
  · exfalso
    obtain ⟨i⟩ := (inferInstance : Nonempty ι)
    obtain ⟨r, hr⟩ := hf i
    have hle : f i ≤ (Finset.univ : Finset ι).fold max (⊥ : EReal) f :=
      (Finset.le_fold_max _).mpr (Or.inr ⟨i, Finset.mem_univ i, le_rfl⟩)
    rw [h, hr] at hle
    exact EReal.coe_ne_bot r (le_bot_iff.mp hle)
  · exact h

variable {Q K V}

theorem real_score (hQ : AllReal Q) (hK : AllReal K) (b : Fin 4) (h : Fin 8) (l k : Fin 2048) :
    ∃ r : ℝ, score Q K b h l k = (r : EReal) :=
  real_sum_mul Finset.univ (fun j => hQ (ix4 b l h j)) (fun j => hK (ix4 b k h j))

theorem real_top (hQ : AllReal Q) (hK : AllReal K) (b : Fin 4) (h : Fin 8) (l : Fin 2048) :
    ∃ r : ℝ, top Q K b h l = (r : EReal) := by
  unfold top
  rw [ofBits_neg_inf]
  exact real_fold_max _ fun k => real_score hQ hK b h l k

/-- A weight is a positive real number. -/
theorem pos_weight (hQ : AllReal Q) (hK : AllReal K) (b : Fin 4) (h : Fin 8) (l k : Fin 2048) :
    ∃ r : ℝ, 0 < r ∧ weight Q K b h l k = (r : EReal) := by
  obtain ⟨s, hs⟩ := real_score hQ hK b h l k
  obtain ⟨t, ht⟩ := real_top hQ hK b h l
  refine ⟨Real.exp (s - t), Real.exp_pos _, ?_⟩
  unfold weight
  rw [hs, ht, ← EReal.coe_sub, Ideal.exp_coe]

/-- A row's mass is a positive real number. -/
theorem pos_mass (hQ : AllReal Q) (hK : AllReal K) (b : Fin 4) (h : Fin 8) (l : Fin 2048) :
    ∃ r : ℝ, 0 < r ∧ mass Q K b h l = (r : EReal) :=
  pos_sum fun k => pos_weight hQ hK b h l k

/-- On arrays of real numbers, normalising after the weighted sum is normalising every weight first. -/
theorem attendAfter_eq_attendBefore (hQ : AllReal Q) (hK : AllReal K) (hV : AllReal V)
    (b : Fin 4) (l : Fin 2048) (h : Fin 8) (d : Fin 64) :
    attendAfter Q K V b l h d = attendBefore Q K V b l h d :=
  div_sum_mul (fun k => weight Q K b h l k) (fun k => V (ix4 b k h d)) (mass Q K b h l)
    (fun k => real_of_pos (pos_weight hQ hK b h l k)) (fun k => hV (ix4 b k h d))
    (ne_zero_of_pos (pos_mass hQ hK b h l))

end Cert.Attention

end
-- ==== Proof.KernelBody.lean ====
/-
  What the kernel body stores, read at coordinates.

  The body loads a [1, 1024, 64] block of queries, a [1, 64, 2048] block of transposed keys and a [1, 2048, 64] block of
  values, drops their leading unit axes, computes one tile of softmax attention normalised after the weighted sum, and
  stores it with a leading unit axis added back. When the three blocks are one head's rows of arrays `A0 A1 A2`
  indexed (batch, position, head, feature) — the query block the positions `row r`, the key block transposed, the value
  block as it lies — the stored entry `(0, r, d)` is the attention of `A0 A1 A2` at `(b, row r, h, d)`, normalised after
  the weighted sum.
-/
import proofs.«135137_j30107720745426_2_alg».proof.Proof.Gen.KernelIdeal.Skeleton
import proofs.«135137_j30107720745426_2_alg».proof.Proof.LibAttentionBody
import proofs.«135137_j30107720745426_2_alg».proof.Proof.LibLayer1Layout
import proofs.«135137_j30107720745426_2_alg».proof.Proof.Attention

noncomputable section

namespace Cert.KernelIdeal.Body

open scoped BigOperators
open Cert.KernelIdeal Cert.KernelIdeal.Gen Idealize.ShloMosaic Idealize.ShloMosaic.ValueIdx
open Cert.AttentionBody Cert.Layer1Layout Cert.Attention

/-- The stored block at `(z, r, d)`, from the loaded blocks with their leading unit axes dropped. -/
theorem pay_apply (v0 : Vec Ideal S1x1024x64 .bf16) (v2 : Vec Ideal S1x64x2048 .bf16) (v4 : Vec Ideal S1x2048x64 .bf16)
    (z : Fin 1) (r : Fin 1024) (d : Fin 64) :
    k0_pay1 (F := Ideal) v0 v2 v4 (ix3 z r d)
      = Ideal.div
          (∑ k : Fin 2048, rowWeight (shapeCast S1024x64 v0 shapeCasts_S1x1024x64_S1024x64 : FVec Ideal S1024x64 .bf16)
              (shapeCast S64x2048 v2 shapeCasts_S1x64x2048_S64x2048 : FVec Ideal S64x2048 .bf16) r k * v4 (ix3 (0 : Fin 1) k d))
          (∑ k : Fin 2048, rowWeight (shapeCast S1024x64 v0 shapeCasts_S1x1024x64_S1024x64 : FVec Ideal S1024x64 .bf16)
              (shapeCast S64x2048 v2 shapeCasts_S1x64x2048_S64x2048 : FVec Ideal S64x2048 .bf16) r k) := by
  unfold k0_pay1
  refine (addLead_apply _ shapeCasts_S1024x64_S1x1024x64 z r d).trans ?_
  refine (normalisedAfter_apply (shapeCast S1024x64 v0 shapeCasts_S1x1024x64_S1024x64 : FVec Ideal S1024x64 .bf16)
    (shapeCast S64x2048 v2 shapeCasts_S1x64x2048_S64x2048 : FVec Ideal S64x2048 .bf16)
    (shapeCast S2048x64 v4 shapeCasts_S1x2048x64_S2048x64 : FVec Ideal S2048x64 .bf16)
    reduces_S1024x2048_S1024 (.inl rfl) rfl rfl shapeCasts_S1024_S1024x1 broadcasts_S1024x1_S1024x2048
    broadcasts_S1024x1_S1024x64 bitsLt_bf16_f32 r d).trans ?_
  refine congrArg₂ Ideal.div (Finset.sum_congr rfl fun k _ => ?_) rfl
  exact congrArg (_ * ·) (dropLead_apply v4 shapeCasts_S1x2048x64_S2048x64 k d)

/-- The stored entry `(z, r, d)` when the blocks are one head's rows of `A0 A1 A2`. -/
theorem pay_eq_attend (A0 A1 A2 : Arr) (b : Fin 4) (h : Fin 8) (row : Fin 1024 → Fin 2048)
    (v0 : Vec Ideal S1x1024x64 .bf16) (v2 : Vec Ideal S1x64x2048 .bf16) (v4 : Vec Ideal S1x2048x64 .bf16)
    (h0 : ∀ (r : Fin 1024) (j : Fin 64), v0 (ix3 (0 : Fin 1) r j) = A0 (ix4 b (row r) h j))
    (h1 : ∀ (j : Fin 64) (k : Fin 2048), v2 (ix3 (0 : Fin 1) j k) = A1 (ix4 b k h j))
    (h2 : ∀ (k : Fin 2048) (d : Fin 64), v4 (ix3 (0 : Fin 1) k d) = A2 (ix4 b k h d))
    (z : Fin 1) (r : Fin 1024) (d : Fin 64) :
    k0_pay1 (F := Ideal) v0 v2 v4 (ix3 z r d) = attendAfter A0 A1 A2 b (row r) h d := by
  have hs : ∀ k : Fin 2048, rowScore (shapeCast S1024x64 v0 shapeCasts_S1x1024x64_S1024x64 : FVec Ideal S1024x64 .bf16)
      (shapeCast S64x2048 v2 shapeCasts_S1x64x2048_S64x2048 : FVec Ideal S64x2048 .bf16) r k = score A0 A1 b h (row r) k := fun k => by
    unfold rowScore score
    refine Finset.sum_congr rfl fun j _ => ?_
    rw [dropLead_apply v0 shapeCasts_S1x1024x64_S1024x64 r j, dropLead_apply v2 shapeCasts_S1x64x2048_S64x2048 j k, h0, h1]
  have hw : ∀ k : Fin 2048, rowWeight (shapeCast S1024x64 v0 shapeCasts_S1x1024x64_S1024x64 : FVec Ideal S1024x64 .bf16)
      (shapeCast S64x2048 v2 shapeCasts_S1x64x2048_S64x2048 : FVec Ideal S64x2048 .bf16) r k = weight A0 A1 b h (row r) k := fun k => by
    unfold rowWeight weight rowTop top
    rw [hs k]
    refine congrArg (fun t => Ideal.exp (score A0 A1 b h (row r) k - t)) ?_
    exact congrArg (fun g => (Finset.univ : Finset (Fin 2048)).fold max (Ideal.ofBits .f32 0xFF800000#32) g) (funext hs)
  rw [pay_apply]
  unfold attendAfter mass
  refine congrArg₂ Ideal.div (Finset.sum_congr rfl fun k _ => ?_) (Finset.sum_congr rfl fun k _ => hw k)
  rw [hw k, h2]

/-- The same at any index of the stored block. -/
theorem pay_eq_attend_at (A0 A1 A2 : Arr) (b : Fin 4) (h : Fin 8) (row : Fin 1024 → Fin 2048)
    (v0 : Vec Ideal S1x1024x64 .bf16) (v2 : Vec Ideal S1x64x2048 .bf16) (v4 : Vec Ideal S1x2048x64 .bf16)
    (h0 : ∀ (r : Fin 1024) (j : Fin 64), v0 (ix3 (0 : Fin 1) r j) = A0 (ix4 b (row r) h j))
    (h1 : ∀ (j : Fin 64) (k : Fin 2048), v2 (ix3 (0 : Fin 1) j k) = A1 (ix4 b k h j))
    (h2 : ∀ (k : Fin 2048) (d : Fin 64), v4 (ix3 (0 : Fin 1) k d) = A2 (ix4 b k h d))
    (y : S1x1024x64.Idx) :
    k0_pay1 (F := Ideal) v0 v2 v4 y = attendAfter A0 A1 A2 b (row (y 1)) h (y 2) := by
  obtain ⟨z, r, d, rfl⟩ : ∃ (z : Fin 1) (r : Fin 1024) (d : Fin 64), y = ix3 z r d := ⟨y 0, y 1, y 2, eq_ix3 y⟩
  exact pay_eq_attend A0 A1 A2 b h row v0 v2 v4 h0 h1 h2 z r d

end Cert.KernelIdeal.Body

end
-- ==== Proof.LibHeadLayout.lean ====
/-
  Splitting attention heads out of (batch, position, head, feature) arrays, read at coordinates, at any extents.

  • The transposition [0, 2, 1, 3] of an [a, n, b, d] array is [a, b, n, d]: entry (r, s, k, e) reads (r, k, s, e).
  • The transposition [0, 2, 3, 1] of an [a, n, b, d] array is [a, b, d, n]: entry (r, s, e, k) reads (r, k, s, e).
  • Merging the two leading axes, [a, b, n, d] → [m, n, d] with m = a·b: entry (g, k, e) with g = r·b + s reads (r, s, k, e).
  • Splitting the leading axis, [m, n, d] → [a, b, n, d]: entry (r, s, k, e) reads (g, k, e) with g = r·b + s.
  Each operation only re-lays values: the result at an index is the operand at one index.
-/
import Idealize.ShloMosaic.Lib.Pipeline.Value
import Idealize.ShloMosaic.Lib.ValueIdx

namespace Cert.HeadLayout

open Idealize.ShloMosaic Idealize.ShloMosaic.ValueIdx

variable {α : Type} {a b n d m : ℕ}

/-- Swapping the two middle axes: (r, s, k, e) of the result reads (r, k, s, e). -/
theorem swapMiddle_apply (x : (⟨4, ![a, n, b, d]⟩ : Shape).Idx → α)
    (h : (⟨4, ![a, n, b, d]⟩ : Shape).Transposes [0, 2, 1, 3] ⟨4, ![a, b, n, d]⟩)
    (r : Fin a) (s : Fin b) (k : Fin n) (e : Fin d) :
    transpose ⟨4, ![a, b, n, d]⟩ [0, 2, 1, 3] x h (ix4 r s k e) = x (ix4 r k s e) :=
  transpose_apply [0, 2, 1, 3] x h (ix4 r s k e) (ix4 r k s e) (fun c => match c with
    | ⟨0, _⟩ => rfl
    | ⟨1, _⟩ => rfl
    | ⟨2, _⟩ => rfl
    | ⟨3, _⟩ => rfl)

/-- Moving the position axis last: (r, s, e, k) of the result reads (r, k, s, e). -/
theorem positionLast_apply (x : (⟨4, ![a, n, b, d]⟩ : Shape).Idx → α)
    (h : (⟨4, ![a, n, b, d]⟩ : Shape).Transposes [0, 2, 3, 1] ⟨4, ![a, b, d, n]⟩)
    (r : Fin a) (s : Fin b) (e : Fin d) (k : Fin n) :
    transpose ⟨4, ![a, b, d, n]⟩ [0, 2, 3, 1] x h (ix4 r s e k) = x (ix4 r k s e) :=
  transpose_apply [0, 2, 3, 1] x h (ix4 r s e k) (ix4 r k s e) (fun c => match c with
    | ⟨0, _⟩ => rfl
    | ⟨1, _⟩ => rfl
    | ⟨2, _⟩ => rfl
    | ⟨3, _⟩ => rfl)

/-- Merging the two leading axes: row `g = r·b + s` of the result reads (r, s, ·, ·). -/
theorem mergeLead_apply {p q : ℕ} (x : (⟨4, ![a, b, p, q]⟩ : Shape).Idx → α)
    (h : (⟨4, ![a, b, p, q]⟩ : Shape).ShapeCasts ⟨3, ![m, p, q]⟩)
    (r : Fin a) (s : Fin b) (k : Fin p) (e : Fin q) (g : Fin m) (hg : g.val = r.val * b + s.val) :
    shapeCast ⟨3, ![m, p, q]⟩ x h (ix3 g k e) = x (ix4 r s k e) :=
  shapeCast_apply x h _ _ (by
    rw [Shape.rowMajor_val_four, Shape.rowMajor_val_three]
    show ((r.val * b + s.val) * p + k.val) * q + e.val = (g.val * p + k.val) * q + e.val
    rw [hg])

/-- Splitting the leading axis: (r, s, ·, ·) of the result reads row `g = r·b + s`. -/
theorem splitLead_apply {p q : ℕ} (x : (⟨3, ![m, p, q]⟩ : Shape).Idx → α)
    (h : (⟨3, ![m, p, q]⟩ : Shape).ShapeCasts ⟨4, ![a, b, p, q]⟩)
    (r : Fin a) (s : Fin b) (k : Fin p) (e : Fin q) (g : Fin m) (hg : g.val = r.val * b + s.val) :
    shapeCast ⟨4, ![a, b, p, q]⟩ x h (ix4 r s k e) = x (ix3 g k e) :=
  shapeCast_apply x h _ _ (by
    rw [Shape.rowMajor_val_four, Shape.rowMajor_val_three]
    show (g.val * p + k.val) * q + e.val = ((r.val * b + s.val) * p + k.val) * q + e.val
    rw [hg])

end Cert.HeadLayout
-- ==== Proof.KernelHost.lean ====
/-
  The host lines around the kernel's region, read at coordinates.

  Before the region each argument array (batch, position, head, feature) is transposed to put the head axis second, its two
  leading axes (batch, head) are merged into one axis of 32 head slots, and the format is narrowed (the identity on extended
  reals): slot `g = 8·b + h` of the query and value arrays reads position `l`, feature `j` of head `(b, h)`; the key
  array is laid with the position axis last. After the region the 32 slots are split back into (batch, head) and the head
  axis is moved back third: the result's entry `(b, l, h, d)` is the region's array at `(8·b + h, l, d)`.
-/
import proofs.«135137_j30107720745426_2_alg».proof.Proof.Gen.KernelIdeal.Frame
import proofs.«135137_j30107720745426_2_alg».proof.Proof.LibHeadLayout
import Idealize.ShloMosaic.Lib.Pipeline.Value
import Idealize.ShloMosaic.Lib.StableHlo.Run
import Idealize.ShloMosaic.PureOps.Ideal

noncomputable section

namespace Cert.KernelIdeal.HostLines

open Cert.KernelIdeal Cert.KernelIdeal.Gen Idealize.ShloMosaic Idealize.ShloMosaic.TcCoe Idealize.SL.Sem
open Idealize.ShloMosaic.StableHlo Idealize.ShloMosaic.ValueIdx Cert.HeadLayout
open Idealize.ShloMosaic.Pipeline (Dat)

variable (m : (ℓ : Loc nD τ sig) → Buf (Elt Ideal) ℓ)

/-- The query array as the region finds it: slot `g = 8·b + h`, position `l`, feature `j` reads the argument at (b, l, h, j). -/
theorem queries_apply (c : Dev nD) (b : Fin 4) (h : Fin 8) (l : Fin 2048) (j : Fin 64) (g : Fin 32) (hg : g.val = b.val * 8 + h.val) :
    (V m c main_v2 : S32x2048x64.Idx → EReal) (ix3 g l j) = (m ((c : Thread nD τ).loc main_arg0) : S4x2048x8x64.Idx → EReal) (ix4 b l h j) := by
  have e : (V m c main_v2 : S32x2048x64.Idx → EReal)
      = truncf .bf16 (shapeCast S32x2048x64 (transpose S4x8x2048x64 [0, 2, 1, 3] (m ((c : Thread nD τ).loc main_arg0) : S4x2048x8x64.Idx → EReal)
          transposes_S4x2048x8x64_S4x8x2048x64_0_2_1_3) shapeCasts_S4x8x2048x64_S32x2048x64 : FVec Ideal S32x2048x64 .f32) bitsLt_bf16_f32 := by
    show StableHlo.after hostOps0 (fun b => m (c, b)) (Proc.devRef .tc main_v2) = _
    after_results
    rfl
  refine (congrFun e _).trans ?_
  refine (truncf_apply (φ := .f32) (ψ := .bf16) _ bitsLt_bf16_f32 _).trans ?_
  refine (mergeLead_apply _ shapeCasts_S4x8x2048x64_S32x2048x64 b h l j g hg).trans ?_
  exact swapMiddle_apply _ transposes_S4x2048x8x64_S4x8x2048x64_0_2_1_3 b h l j

/-- The key array as the region finds it, position axis last: slot `g`, feature `j`, position `k` reads the argument at (b, k, h, j). -/
theorem keys_apply (c : Dev nD) (b : Fin 4) (h : Fin 8) (j : Fin 64) (k : Fin 2048) (g : Fin 32) (hg : g.val = b.val * 8 + h.val) :
    (V m c main_v5 : S32x64x2048.Idx → EReal) (ix3 g j k) = (m ((c : Thread nD τ).loc main_arg1) : S4x2048x8x64.Idx → EReal) (ix4 b k h j) := by
  have e : (V m c main_v5 : S32x64x2048.Idx → EReal)
      = truncf .bf16 (shapeCast S32x64x2048 (transpose S4x8x64x2048 [0, 2, 3, 1] (m ((c : Thread nD τ).loc main_arg1) : S4x2048x8x64.Idx → EReal)
          transposes_S4x2048x8x64_S4x8x64x2048_0_2_3_1) shapeCasts_S4x8x64x2048_S32x64x2048 : FVec Ideal S32x64x2048 .f32) bitsLt_bf16_f32 := by
    show StableHlo.after hostOps0 (fun b => m (c, b)) (Proc.devRef .tc main_v5) = _
    after_results
    rfl
  refine (congrFun e _).trans ?_
  refine (truncf_apply (φ := .f32) (ψ := .bf16) _ bitsLt_bf16_f32 _).trans ?_
  refine (mergeLead_apply _ shapeCasts_S4x8x64x2048_S32x64x2048 b h j k g hg).trans ?_
  exact positionLast_apply _ transposes_S4x2048x8x64_S4x8x64x2048_0_2_3_1 b h j k

/-- The value array as the region finds it: slot `g`, position `k`, feature `d` reads the argument at (b, k, h, d). -/
theorem values_apply (c : Dev nD) (b : Fin 4) (h : Fin 8) (k : Fin 2048) (d : Fin 64) (g : Fin 32) (hg : g.val = b.val * 8 + h.val) :
    (V m c main_v8 : S32x2048x64.Idx → EReal) (ix3 g k d) = (m ((c : Thread nD τ).loc main_arg2) : S4x2048x8x64.Idx → EReal) (ix4 b k h d) := by
  have e : (V m c main_v8 : S32x2048x64.Idx → EReal)
      = truncf .bf16 (shapeCast S32x2048x64 (transpose S4x8x2048x64 [0, 2, 1, 3] (m ((c : Thread nD τ).loc main_arg2) : S4x2048x8x64.Idx → EReal)
          transposes_S4x2048x8x64_S4x8x2048x64_0_2_1_3) shapeCasts_S4x8x2048x64_S32x2048x64 : FVec Ideal S32x2048x64 .f32) bitsLt_bf16_f32 := by
    show StableHlo.after hostOps0 (fun b => m (c, b)) (Proc.devRef .tc main_v8) = _
    after_results
    rfl
  refine (congrFun e _).trans ?_
  refine (truncf_apply (φ := .f32) (ψ := .bf16) _ bitsLt_bf16_f32 _).trans ?_
  refine (mergeLead_apply _ shapeCasts_S4x8x2048x64_S32x2048x64 b h k d g hg).trans ?_
  exact swapMiddle_apply _ transposes_S4x2048x8x64_S4x8x2048x64_0_2_1_3 b h k d

/-- The program's result after the lines that follow the region: entry (b, l, h, d) is the region's output array at (8·b + h, l, d). -/
theorem result_apply (c : Dev nD) (b : Fin 4) (l : Fin 2048) (h : Fin 8) (d : Fin 64) (g : Fin 32) (hg : g.val = b.val * 8 + h.val) :
    (Pipeline.afterTail₀ cfgs (dats m) 0 (V0 m) [hostOps1] c main_v11 : S4x2048x8x64.Idx → EReal) (ix4 b l h d)
      = ((dats m 0 c).arrAt 3 cfg0.N : S32x2048x64.Idx → EReal) (ix3 g l d) := by
  have e : (Pipeline.afterTail₀ cfgs (dats m) 0 (V0 m) [hostOps1] c main_v11 : S4x2048x8x64.Idx → EReal)
      = transpose S4x2048x8x64 [0, 2, 1, 3] (shapeCast S4x8x2048x64
          (Pipeline.withArrays spec0 c (V0 m c) (fun w => (dats m 0 c).arrAt w cfg0.N) (Proc.devRef .tc (Pipeline.arrRef spec0 3)) : S32x2048x64.Idx → EReal)
          shapeCasts_S32x2048x64_S4x8x2048x64) transposes_S4x8x2048x64_S4x2048x8x64_0_2_1_3 := by
    unfold Pipeline.afterTail₀
    show StableHlo.after hostOps1 _ (Proc.devRef .tc main_v11) = _
    after_results
    rfl
  refine (congrFun e _).trans ?_
  refine (swapMiddle_apply _ transposes_S4x8x2048x64_S4x2048x8x64_0_2_1_3 b l h d).trans ?_
  refine (splitLead_apply _ shapeCasts_S32x2048x64_S4x8x2048x64 b h l d g hg).trans ?_
  exact congrFun (Pipeline.withArrays_arr spec0 launch0.win.arr_inj c (V0 m c) (fun w => (dats m 0 c).arrAt w cfg0.N) 3) (ix3 g l d)

end Cert.KernelIdeal.HostLines

end
-- ==== Proof.KernelValue.lean ====
/-
  The array the kernel's region leaves, and the program's result, as functions of the argument arrays.

  The region's grid has 32 head slots by 2 halves of the positions. At point (g, half) the body reads slot `g`'s rows
  `1024·half …` of the query array, slot `g`'s whole transposed key block and value block, and writes rows `1024·half …` of
  slot `g` of the output: the attention, normalised after the weighted sum, of head `(g / 8, g % 8)`. The 64 blocks tile
  the output array, so after the region it holds that attention everywhere; the lines after the region lay it back as
  (batch, position, head, feature).
-/
import proofs.«135137_j30107720745426_2_alg».proof.Proof.Gen.KernelIdeal.Frame
import proofs.«135137_j30107720745426_2_alg».proof.Proof.KernelBody
import proofs.«135137_j30107720745426_2_alg».proof.Proof.KernelHost
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Attention
open Idealize.ShloMosaic.Pipeline (Dat)

/-- The batch of head slot `g`. -/
def batchOf (g : Fin 32) : Fin 4 := ⟨g.val / 8, by have := g.isLt; omega⟩
/-- The head of head slot `g`. -/
def headOf (g : Fin 32) : Fin 8 := ⟨g.val % 8, by omega⟩

theorem slot_eq (g : Fin 32) : g.val = (batchOf g).val * 8 + (headOf g).val := by
  show g.val = g.val / 8 * 8 + g.val % 8
  omega

theorem batchOf_slot (b : Fin 4) (h : Fin 8) (g : Fin 32) (hg : g.val = b.val * 8 + h.val) : batchOf g = b :=
  Fin.ext (by show g.val / 8 = b.val; have := h.isLt; omega)

theorem headOf_slot (b : Fin 4) (h : Fin 8) (g : Fin 32) (hg : g.val = b.val * 8 + h.val) : headOf g = h :=
  Fin.ext (by show g.val % 8 = h.val; have := h.isLt; omega)

/-- The region's output array as one function of the argument arrays: slot `g`, position `l`, feature `d` holds head
    `(g / 8, g % 8)`'s attention at position `l`, normalised after the weighted sum. -/
def headOut (A0 A1 A2 : Arr) : S32x2048x64.Idx → EReal := fun i =>
  attendAfter A0 A1 A2 (batchOf ⟨(i 0).val, (i 0).isLt⟩) ⟨(i 1).val, (i 1).isLt⟩ (headOf ⟨(i 0).val, (i 0).isLt⟩) ⟨(i 2).val, (i 2).isLt⟩

theorem headOut_apply (A0 A1 A2 : Arr) (g : Fin 32) (l : Fin 2048) (d : Fin 64) :
    headOut A0 A1 A2 (ix3 g l d) = attendAfter A0 A1 A2 (batchOf g) l (headOf g) d := rfl

variable (m : (ℓ : Loc nD τ sig) → Buf (Elt Ideal) ℓ) (ρ : Dev nD → PrngReg)

/-- The argument arrays as launched. -/
abbrev arg0 (c : Dev nD) : Arr := m ((c : Thread nD τ).loc main_arg0)
abbrev arg1 (c : Dev nD) : Arr := m ((c : Thread nD τ).loc main_arg1)
abbrev arg2 (c : Dev nD) : Arr := m ((c : Thread nD τ).loc main_arg2)

theorem zeroOffset : (![0, 0, 0] : Fin 3 → Nat) = fun _ => 0 := funext fun a => by fin_cases a <;> rfl

/-- The printed index maps over the grid: the query window moves with the output window; the key and value windows
    follow its head slot and stay at block 0 on their other axes; the output's block indices stay in range. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) ≤ 1 ∧ win0_3.index t (2 : Fin 3) = 0 :=
  (by decide +kernel : ∀ t : Fin grid0.N, _)

/-- Every (head slot, half) is some point's output block. -/
theorem index_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- What point `t` writes back is block `t` of `headOut` of the argument arrays. -/
theorem flushed_eq (c : Dev nD) (t : Fin cfg0.N) :
    (dats m 0 c).flushed 3 t = ((cfg0.win 3).blk t).view.read (Elt Ideal) (headOut (arg0 m c) (arg1 m c) (arg2 m c)) := by
  show (cfg0.win 3).cut (grid0.coords t) ((dats m 0 c).after 3 t) = _
  rw [after0_3]
  unfold out0_3
  rw [View.canon_unit_zero zeroOffset]
  simp only [View.ld_unit_zero (S := S1x1024x64) zeroOffset, View.ld_unit_zero (S := S1x64x2048) zeroOffset,
    View.ld_unit_zero (S := S1x2048x64) zeroOffset]
  obtain ⟨e00, e01, e02, e10, e11, e12, e20, e21, e22, b0, b1, b2⟩ := index_facts t
  have hg : win0_3.index t (0 : Fin 3) < 32 := by omega
  have hrow : ∀ r : Fin 1024, win0_3.index t (1 : Fin 3) * 1024 + r.val < 2048 := fun r => by have := r.isLt; omega
  funext y
  refine (Body.pay_eq_attend_at (arg0 m c) (arg1 m c) (arg2 m c) (batchOf ⟨win0_3.index t (0 : Fin 3), hg⟩)
    (headOf ⟨win0_3.index t (0 : Fin 3), hg⟩) (fun r => ⟨win0_3.index t (1 : Fin 3) * 1024 + r.val, hrow r⟩)
    (iblk m c 0 t) (iblk m c 1 t) (iblk m c 2 t) ?_ ?_ ?_ y).trans ?_
  · intro r j
    show V m c main_v2 (((cfg0.win 0).blk t).view.emb (ix3 (0 : Fin 1) r j)) = _
    have he : ((cfg0.win 0).blk t).view.emb (ix3 (0 : Fin 1) r j)
        = ix3 (⟨win0_3.index t (0 : Fin 3), hg⟩ : Fin 32) (⟨win0_3.index t (1 : Fin 3) * 1024 + r.val, hrow r⟩ : Fin 2048) j := by
      funext a; apply Fin.ext
      match a with
      | ⟨0, _⟩ => show win0_0.index t (0 : Fin 3) * 1 + 1 * 0 = win0_3.index t (0 : Fin 3); omega
      | ⟨1, _⟩ => show win0_0.index t (1 : Fin 3) * 1024 + 1 * r.val = win0_3.index t (1 : Fin 3) * 1024 + r.val; omega
      | ⟨2, _⟩ => show win0_0.index t (2 : Fin 3) * 64 + 1 * j.val = j.val; omega
    rw [he]
    exact HostLines.queries_apply m c _ _ _ j _ (slot_eq _)
  · intro j k
    show V m c main_v5 (((cfg0.win 1).blk t).view.emb (ix3 (0 : Fin 1) j k)) = _
    have he : ((cfg0.win 1).blk t).view.emb (ix3 (0 : Fin 1) j k) = ix3 (⟨win0_3.index t (0 : Fin 3), hg⟩ : Fin 32) j k := by
      funext a; apply Fin.ext
      match a with
      | ⟨0, _⟩ => show win0_1.index t (0 : Fin 3) * 1 + 1 * 0 = win0_3.index t (0 : Fin 3); omega
      | ⟨1, _⟩ => show win0_1.index t (1 : Fin 3) * 64 + 1 * j.val = j.val; omega
      | ⟨2, _⟩ => show win0_1.index t (2 : Fin 3) * 2048 + 1 * k.val = k.val; omega
    rw [he]
    exact HostLines.keys_apply m c _ _ j k _ (slot_eq _)
  · intro k d
    show V m c main_v8 (((cfg0.win 2).blk t).view.emb (ix3 (0 : Fin 1) k d)) = _
    have he : ((cfg0.win 2).blk t).view.emb (ix3 (0 : Fin 1) k d) = ix3 (⟨win0_3.index t (0 : Fin 3), hg⟩ : Fin 32) k d := by
      funext a; apply Fin.ext
      match a with
      | ⟨0, _⟩ => show win0_2.index t (0 : Fin 3) * 1 + 1 * 0 = win0_3.index t (0 : Fin 3); omega
      | ⟨1, _⟩ => show win0_2.index t (1 : Fin 3) * 2048 + 1 * k.val = k.val; omega
      | ⟨2, _⟩ => show win0_2.index t (2 : Fin 3) * 64 + 1 * d.val = d.val; omega
    rw [he]
    exact HostLines.values_apply m c _ _ k d _ (slot_eq _)
  · show _ = headOut (arg0 m c) (arg1 m c) (arg2 m c) (((cfg0.win 3).blk t).view.emb y)
    have he : ((cfg0.win 3).blk t).view.emb y
        = ix3 (⟨win0_3.index t (0 : Fin 3), hg⟩ : Fin 32) (⟨win0_3.index t (1 : Fin 3) * 1024 + (y 1).val, hrow (y 1)⟩ : Fin 2048) (y 2) := by
      funext a; apply Fin.ext
      match a with
      | ⟨0, _⟩ => show win0_3.index t (0 : Fin 3) * 1 + 1 * (y 0).val = win0_3.index t (0 : Fin 3); have : (y 0).val < 1 := (y 0).isLt; omega
      | ⟨1, _⟩ => show win0_3.index t (1 : Fin 3) * 1024 + 1 * (y 1).val = win0_3.index t (1 : Fin 3) * 1024 + (y 1).val; omega
      | ⟨2, _⟩ => show win0_3.index t (2 : Fin 3) * 64 + 1 * (y 2).val = (y 2).val; omega
    rw [he]
    exact (headOut_apply (arg0 m c) (arg1 m c) (arg2 m c) _ _ _).symm

/-- An index of the output array is in point `t`'s block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v9).slice (win0_3.rect t)).set ↔ _
  rw [View.set_slice_whole, Rect.mem_set_unit]
  exact Iff.rfl

/-- Every index of the output array is in some point's block: slot `i 0`, half `i 1 / 1024`. -/
theorem covered (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The output array after the region. -/
theorem final (c : Dev nD) : (dats m 0 c).arrAt 3 cfg0.N = headOut (arg0 m c) (arg1 m c) (arg2 m c) :=
  (dats m 0 c).arrAt_eq_of_cover 3 (headOut (arg0 m c) (arg1 m c) (arg2 m c)) (fun t _ => flushed_eq m c t) covered

/-- The program's result as one function of the argument arrays: the attention normalised after the weighted sum. -/
def result (c : Dev nD) : S4x2048x8x64.Idx → EReal := fun i =>
  attendAfter (arg0 m c) (arg1 m c) (arg2 m c) ⟨(i 0).val, (i 0).isLt⟩ ⟨(i 1).val, (i 1).isLt⟩ ⟨(i 2).val, (i 2).isLt⟩ ⟨(i 3).val, (i 3).isLt⟩

/-- The lines after the region leave that function in the result buffer. -/
theorem tail_eq (c : Dev nD) :
    (Pipeline.afterTail₀ cfgs (dats m) 0 (V0 m) [hostOps1] c main_v11 : S4x2048x8x64.Idx → EReal) = result m c := by
  funext i
  obtain ⟨b, l, h, d, rfl⟩ : ∃ (b : Fin 4) (l : Fin 2048) (h : Fin 8) (d : Fin 64), i = ix4 b l h d := ⟨i 0, i 1, i 2, i 3, eq_ix4 i⟩
  have hlt : b.val * 8 + h.val < 32 := by have := b.isLt; have := h.isLt; omega
  refine (HostLines.result_apply m c b l h d ⟨b.val * 8 + h.val, hlt⟩ rfl).trans ?_
  rw [final, headOut_apply, batchOf_slot b h _ rfl, headOf_slot b h _ rfl]
  rfl

/-- The kernel's run, read: the result buffer ends at `result`, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v11 (Pipeline.mem_restRefs_of main_v11 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.RegionValue

end
-- ==== Proof.RefSide.lean ====
/-
  The reference program read at coordinates.

  Its arrays are laid (batch, head, position, ·). Stage by stage: the first contraction is the score of a query
  position against a key position; the maximum along the last axis, taken again against `-∞`, is the row's top; the
  exponential of the difference is the weight; the sum along the last axis from zero is the row's mass; the quotient is the
  normalised weight; the second contraction sums the normalised weights against the values; the last transposition puts
  the result back in (batch, position, head, feature) order. So the result is the attention normalised before the weighted sum.
-/
import proofs.«135137_j30107720745426_2_alg».proof.Proof.Gen.ReferenceIdeal.Read
import proofs.«135137_j30107720745426_2_alg».proof.Proof.Attention

noncomputable section

namespace Cert.ReferenceIdeal.RefValue

open Cert.ReferenceIdeal Cert.ReferenceIdeal.Gen Cert.ReferenceIdeal.Read
open Idealize.ShloMosaic Idealize.ShloMosaic.ValueIdx Cert.Attention

variable (x0 x1 x2 : (⟨S4x2048x8x64, .f32⟩ : BufTy).Contents (Elt Ideal))

/-- The first contraction at (b, h, l, k) is the score of query position `l` against key position `k`. -/
theorem scores_apply (b : Fin 4) (h : Fin 8) (l k : Fin 2048) :
    val_main_v3 (F := Ideal) x0 x1 (ix4 b h l k) = score x0 x1 b h l k := by
  rw [val_main_v3_apply]
  unfold score
  refine Finset.sum_congr rfl fun j _ => ?_
  rw [val_main_v0_apply, val_main_v1_apply]
  have e0 : idx_main_v0 (lidx_main_v3 (ix4 b h l k) j) = ix4 b l h j := funext fun a => by
    match a with | ⟨0, _⟩ => rfl | ⟨1, _⟩ => rfl | ⟨2, _⟩ => rfl | ⟨3, _⟩ => rfl
  have e1 : idx_main_v1 (ridx_main_v3 (ix4 b h l k) j) = ix4 b k h j := funext fun a => by
    match a with | ⟨0, _⟩ => rfl | ⟨1, _⟩ => rfl | ⟨2, _⟩ => rfl | ⟨3, _⟩ => rfl
  rw [e0, e1]

/-- Dropping the last axis of a (batch, head, position, position) array leaves (batch, head, position). -/
theorem lastAxis : S4x8x2048x2048.Reduces [3] S4x8x2048 := by decide

/-- The maximum along the last axis, from `-∞`, at (b, h, l) is the row's top. -/
theorem rowTop_apply (b : Fin 4) (h : Fin 8) (l : Fin 2048) :
    val_main_v4 (F := Ideal) x0 x1 (ix3 b h l) = top x0 x1 b h l := by
  unfold val_main_v4
  have key := Host.reduce_eq_fold_single (α := EReal) (FloatOps.maximumf (F := Ideal) (φ := .f32))
    (val_main_v3 (F := Ideal) x0 x1) (val_main_cst (F := Ideal)) reducesTo_S4x8x2048x2048_S4x8x2048_d3 lastAxis h_S_ (ix3 b h l)
  refine key.trans ?_
  show (Finset.univ : Finset (Fin 2048)).fold max (Ideal.ofBits .f32 0xFF800000#32) (val_main_v3 (F := Ideal) x0 x1 ∘ _) = _
  unfold top
  refine congrArg (fun f => (Finset.univ : Finset (Fin 2048)).fold max (Ideal.ofBits .f32 0xFF800000#32) f) (funext fun k => ?_)
  rw [← scores_apply]
  refine congrArg (val_main_v3 (F := Ideal) x0 x1) (funext fun a => Fin.ext ?_)
  match a with | ⟨0, _⟩ => rfl | ⟨1, _⟩ => rfl | ⟨2, _⟩ => rfl | ⟨3, _⟩ => rfl

/-- Taking the maximum against `-∞` once more changes nothing. -/
theorem clampedTop_apply (b : Fin 4) (h : Fin 8) (l : Fin 2048) :
    val_main_v6 (F := Ideal) x0 x1 (ix3 b h l) = top x0 x1 b h l := by
  rw [val_main_v6_apply, val_main_v5_apply, val_main_cst_0_apply, rowTop_apply]
  show max (Ideal.ofBits .f32 0xFF800000#32) (top x0 x1 b h l) = _
  rw [ofBits_neg_inf]
  exact max_eq_right bot_le

/-- The exponential of score minus top is the weight. -/
theorem weights_apply (b : Fin 4) (h : Fin 8) (l k : Fin 2048) :
    val_main_v10 (F := Ideal) x0 x1 (ix4 b h l k) = weight x0 x1 b h l k := by
  rw [val_main_v10_apply, val_main_v9_apply, val_main_v8_apply, val_main_v7_apply, scores_apply]
  have e : idx_main_v7 (idx_main_v8 (ix4 b h l k)) = ix3 b h l := funext fun a => by
    match a with | ⟨0, _⟩ => rfl | ⟨1, _⟩ => rfl | ⟨2, _⟩ => rfl
  rw [e, clampedTop_apply]
  rfl

/-- The sum along the last axis, from zero, is the row's mass. -/
theorem mass_apply (b : Fin 4) (h : Fin 8) (l : Fin 2048) :
    val_main_v11 (F := Ideal) x0 x1 (ix3 b h l) = mass x0 x1 b h l := by
  rw [val_main_v11_apply, val_main_cst_1_apply]
  show Ideal.ofBits .f32 0x00000000#32 + _ = _
  rw [Ideal.ofBits_zero_f32, zero_add]
  unfold mass
  refine Finset.sum_congr rfl fun k _ => ?_
  rw [← weights_apply]
  refine congrArg (val_main_v10 (F := Ideal) x0 x1) (funext fun a => ?_)
  match a with | ⟨0, _⟩ => rfl | ⟨1, _⟩ => rfl | ⟨2, _⟩ => rfl | ⟨3, _⟩ => rfl

/-- The quotient is the normalised weight. -/
theorem normalised_apply (b : Fin 4) (h : Fin 8) (l k : Fin 2048) :
    val_main_v14 (F := Ideal) x0 x1 (ix4 b h l k) = Ideal.div (weight x0 x1 b h l k) (mass x0 x1 b h l) := by
  rw [val_main_v14_apply, val_main_v13_apply, val_main_v12_apply, weights_apply]
  have e : idx_main_v12 (idx_main_v13 (ix4 b h l k)) = ix3 b h l := funext fun a => by
    match a with | ⟨0, _⟩ => rfl | ⟨1, _⟩ => rfl | ⟨2, _⟩ => rfl
  rw [e, mass_apply]
  rfl

/-- The second contraction at (b, h, l, d) sums the normalised weights against the values. -/
theorem context_apply (b : Fin 4) (h : Fin 8) (l : Fin 2048) (d : Fin 64) :
    val_main_v15 (F := Ideal) x0 x1 x2 (ix4 b h l d) = attendBefore x0 x1 x2 b l h d := by
  rw [val_main_v15_apply]
  unfold attendBefore
  refine Finset.sum_congr rfl fun k _ => ?_
  have e0 : lidx_main_v15 (ix4 b h l d) k = ix4 b h l k := funext fun a => by
    match a with | ⟨0, _⟩ => rfl | ⟨1, _⟩ => rfl | ⟨2, _⟩ => rfl | ⟨3, _⟩ => rfl
  have e1 : idx_main_v2 (ridx_main_v15 (ix4 b h l d) k) = ix4 b k h d := funext fun a => by
    match a with | ⟨0, _⟩ => rfl | ⟨1, _⟩ => rfl | ⟨2, _⟩ => rfl | ⟨3, _⟩ => rfl
  rw [val_main_v2_apply, e0, e1, normalised_apply]

/-- The reference's result, entry by entry: the attention normalised before the weighted sum. -/
theorem result_apply (b : Fin 4) (l : Fin 2048) (h : Fin 8) (d : Fin 64) :
    val_main_v16 (F := Ideal) x0 x1 x2 (ix4 b l h d) = attendBefore x0 x1 x2 b l h d := by
  rw [val_main_v16_apply, ← context_apply]
  refine congrArg (val_main_v15 (F := Ideal) x0 x1 x2) (funext fun a => ?_)
  match a with | ⟨0, _⟩ => rfl | ⟨1, _⟩ => rfl | ⟨2, _⟩ => rfl | ⟨3, _⟩ => rfl

end Cert.ReferenceIdeal.RefValue

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.Finite.lean ====
/-
  The finiteness precondition, read: every entry of the three argument arrays is a real number.

  The precondition is the conjunction of three tests, one per array: every entry's absolute value compares below
  `+∞`, all of them at once (a reduction by `and` over every axis into a rank-0 result). A conjunction of one-bit words
  that is 1 has both words 1; an all-true reduction that is 1 has every entry 1; and an extended real whose absolute
  value is below `+∞` is a real number.
-/
import proofs.«135137_j30107720745426_2_alg».proof.Pre_finite_inputs
import Idealize.ShloMosaic.Lib.ReduceAll
import proofs.«135137_j30107720745426_2_alg».proof.Proof.LibFiniteEntry
import proofs.«135137_j30107720745426_2_alg».proof.Proof.Attention

noncomputable section

namespace Cert.Pre_finite_inputs.Finite

open Idealize.ShloMosaic Idealize.ShloMosaic.ValueIdx Cert.Pre_finite_inputs Cert.Attention Cert.FiniteEntry

variable [Facts]

/-- One array's test: if the all-true reduction of "absolute value below `+∞`" is 1, every entry is a real number. -/
theorem allReal_of_test (x : FVec Ideal S4x2048x8x64 .f32) (init : IVec S_ 1)
    (e : Host.reduce IntOp.andi (cmpf .olt (Host.absf x)
        (broadcastInDim S4x2048x8x64 ![] Facts.bcast_S_S4x2048x8x64 (constant (F := Ideal) S_ .f32 0x7F800000#32)))
      init Facts.reducesTo_S4x2048x8x64_S_d0_1_2_3 Facts.h_S_ ix0 = 1#1) : AllReal x := by
  intro i
  have h := Host.reduce_andi_all _ init _ _ ix0 e i
  exact real_of_abs_lt_top (x i) h

/-- The precondition gives that all three arrays hold real numbers. -/
theorem allReal_of_pre (a0 a1 a2 : FVec Ideal S4x2048x8x64 .f32) (h : fn (F := Ideal) a0 a1 a2 = fun _ => 1#1) :
    AllReal a0 ∧ AllReal a1 ∧ AllReal a2 := by
  have h0 := congrFun h ix0
  dsimp only [fn] at h0
  obtain ⟨h01, h2⟩ := IntOp.andi_eq_one.mp h0
  obtain ⟨h0', h1'⟩ := IntOp.andi_eq_one.mp h01
  exact ⟨allReal_of_test a0 _ h0', allReal_of_test a1 _ h1', allReal_of_test a2 _ h2⟩

end Cert.Pre_finite_inputs.Finite

end
-- ==== Proof.lean ====
/-
  The certificate of a dense softmax attention kernel against its reference.

  Both programs compute, for arrays (batch, position, head, feature) of queries, keys and values, the attention
  `softmax (Q Kᵀ) V` per head, without scaling. The kernel keeps the exponentials unnormalised through the second
  matrix product and divides the product by the row's mass afterwards; the reference divides every exponential by the
  mass first. On the extended reals the two agree when every input entry is a real number — then the mass is a
  positive real and a quotient by it distributes over the finite sum — which is what the finiteness precondition gives.
  The three frames are the generated ones (the reference's is its generated run with the result dropped), and the ideal
  pass rewrote nothing, so the kernel's idealization is its own text read on the extended reals.
-/
import proofs.«135137_j30107720745426_2_alg».proof.Defs
import proofs.«135137_j30107720745426_2_alg».proof.Proof.Gen.Kernel
import proofs.«135137_j30107720745426_2_alg».proof.Proof.Gen.Kernel.Skeleton
import proofs.«135137_j30107720745426_2_alg».proof.Proof.Gen.Kernel.Launch
import proofs.«135137_j30107720745426_2_alg».proof.Proof.Gen.Kernel.Points
import proofs.«135137_j30107720745426_2_alg».proof.Proof.Gen.Kernel.Frame
import proofs.«135137_j30107720745426_2_alg».proof.Proof.Gen.KernelIdeal
import proofs.«135137_j30107720745426_2_alg».proof.Proof.Gen.KernelIdeal.Skeleton
import proofs.«135137_j30107720745426_2_alg».proof.Proof.Gen.KernelIdeal.Launch
import proofs.«135137_j30107720745426_2_alg».proof.Proof.Gen.KernelIdeal.Points
import proofs.«135137_j30107720745426_2_alg».proof.Proof.Gen.KernelIdeal.Frame
import proofs.«135137_j30107720745426_2_alg».proof.Proof.Gen.ReferenceIdeal
import proofs.«135137_j30107720745426_2_alg».proof.Proof.Gen.Pre_finite_inputs
import proofs.«135137_j30107720745426_2_alg».proof.Proof.Gen.ReferenceIdeal.Run
import proofs.«135137_j30107720745426_2_alg».proof.Proof.Gen.ReferenceIdeal.Read
import proofs.«135137_j30107720745426_2_alg».proof.Proof.KernelValue
import proofs.«135137_j30107720745426_2_alg».proof.Proof.RefSide
import proofs.«135137_j30107720745426_2_alg».proof.Proof.Finite
import Idealize.ShloMosaic.Adequacy
import Idealize.ShloMosaic.Init

noncomputable section

namespace Cert.Proof

open Idealize.ShloMosaic Idealize.ShloMosaic.ValueIdx Idealize.SL.Sem Cert.Attention

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From agreeing argument arrays of real numbers both programs end with the same result: the kernel's is the attention
    normalised after the weighted sum, the reference's the attention normalised before it. -/
theorem algebraic : Cert.algebraic_KernelIdeal_ReferenceIdeal := by
  intro m ρ m' ρ' hpre hagree
  refine ⟨fun c => Cert.KernelIdeal.RegionValue.result m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  obtain ⟨h0, h1, h2⟩ := Cert.Pre_finite_inputs.Finite.allReal_of_pre _ _ _ (hpre c)
  funext i
  obtain ⟨b, l, h, d, rfl⟩ : ∃ (b : Fin 4) (l : Fin 2048) (h : Fin 8) (d : Fin 64), i = ix4 b l h d :=
    ⟨i 0, i 1, i 2, i 3, eq_ix4 i⟩
  rw [Cert.ReferenceIdeal.RefValue.result_apply]
  exact (attendAfter_eq_attendBefore h0 h1 h2 b l h d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
